-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2048x128 .f32) (main_arg1 : FVec F S128x64 .f32) (main_arg2 : FVec F S64 .f32) (main_arg3 : FVec F S128x64 .f32) (main_arg4 : FVec F S64 .f32) (main_arg5 : FVec F S64x1 .f32) (main_arg6 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S2048x128 : Shape := ⟨2, ![2048, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x64 : Shape := ⟨2, ![2048, 64]⟩
abbrev S1x64 : Shape := ⟨2, ![1, 64]⟩
abbrev S64x64 : Shape := ⟨2, ![64, 64]⟩
abbrev S64x2048 : Shape := ⟨2, ![64, 2048]⟩
abbrev S1x1 : Shape := ⟨2, ![1, 1]⟩
abbrev S2048x2048 : Shape := ⟨2, ![2048, 2048]⟩
abbrev S256x64 : Shape := ⟨2, ![256, 64]⟩
abbrev S256x2048 : Shape := ⟨2, ![256, 2048]⟩
abbrev S256x1 : Shape := ⟨2, ![256, 1]⟩
abbrev S1x2048 : Shape := ⟨2, ![1, 2048]⟩

abbrev nBuf : Space → Nat
  | .hbm => 21
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2048x64, .f32⟩
  | .hbm, ⟨8, _⟩ => ⟨S1x64, .f32⟩
  | .hbm, ⟨9, _⟩ => ⟨S2048x64, .f32⟩
  | .hbm, ⟨10, _⟩ => ⟨S2048x64, .f32⟩
  | .hbm, ⟨11, _⟩ => ⟨S64x64, .f32⟩
  | .hbm, ⟨12, _⟩ => ⟨S64x64, .f32⟩
  | .hbm, ⟨13, _⟩ => ⟨S2048x64, .f32⟩
  | .hbm, ⟨14, _⟩ => ⟨S2048x64, .f32⟩
  | .hbm, ⟨15, _⟩ => ⟨S64x2048, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S1x1, .f32⟩
  | .hbm, ⟨20, _⟩ => ⟨S2048x2048, .f32⟩
  | .local _ .vmem, ⟨0, _⟩ => ⟨S256x64, .f32⟩
  | .local _ .vmem, ⟨1, _⟩ => ⟨S256x64, .f32⟩
  | .local _ .vmem, ⟨2, _⟩ => ⟨S64x2048, .f32⟩
  | .local _ .vmem, ⟨3, _⟩ => ⟨S64x1, .f32⟩
  | .local _ .vmem, ⟨4, _⟩ => ⟨S1x1, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  slices_S128x64_S64x64_0_0 : S128x64.Slices ![0, 0] S64x64
  slices_S128x64_S64x64_64_0 : S128x64.Slices ![64, 0] S64x64
  transposes_S2048x64_S64x2048_1_0 : S2048x64.Transposes [1, 0] S64x2048
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x64_S256x1_0_0 : ∀ a, (![0, 0] : Fin 2 → Nat) a + S256x1.size a ≤ S256x64.size a
  h_S256x1 : 0 < S256x1.numel
  shapeCasts_S256x1_S256x1 : S256x1.ShapeCasts S256x1
  inb_S64x2048_S1x2048_0_0 : ∀ a, (![0, 0] : Fin 2 → Nat) a + S1x2048.size a ≤ S64x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S64x1_S1x1_0_0 : ∀ a, (![0, 0] : Fin 2 → Nat) a + S1x1.size a ≤ S64x1.size a
  h_S1x1 : 0 < S1x1.numel
  inpos_S1x1_p0_0 : ∀ a, (![0, 0] : Fin 2 → Nat) a < S1x1.size a
  inb_S256x64_S256x1_0_1 : ∀ a, (![0, 1] : Fin 2 → Nat) a + S256x1.size a ≤ S256x64.size a
  inb_S64x2048_S1x2048_1_0 : ∀ a, (![1, 0] : Fin 2 → Nat) a + S1x2048.size a ≤ S64x2048.size a
  inb_S64x1_S1x1_1_0 : ∀ a, (![1, 0] : Fin 2 → Nat) a + S1x1.size a ≤ S64x1.size a
  inb_S256x64_S256x1_0_2 : ∀ a, (![0, 2] : Fin 2 → Nat) a + S256x1.size a ≤ S256x64.size a
  inb_S64x2048_S1x2048_2_0 : ∀ a, (![2, 0] : Fin 2 → Nat) a + S1x2048.size a ≤ S64x2048.size a
  inb_S64x1_S1x1_2_0 : ∀ a, (![2, 0] : Fin 2 → Nat) a + S1x1.size a ≤ S64x1.size a
  inb_S256x64_S256x1_0_3 : ∀ a, (![0, 3] : Fin 2 → Nat) a + S256x1.size a ≤ S256x64.size a
  inb_S64x2048_S1x2048_3_0 : ∀ a, (![3, 0] : Fin 2 → Nat) a + S1x2048.size a ≤ S64x2048.size a
  inb_S64x1_S1x1_3_0 : ∀ a, (![3, 0] : Fin 2 → Nat) a + S1x1.size a ≤ S64x1.size a
  inb_S256x64_S256x1_0_4 : ∀ a, (![0, 4] : Fin 2 → Nat) a + S256x1.size a ≤ S256x64.size a
  inb_S64x2048_S1x2048_4_0 : ∀ a, (![4, 0] : Fin 2 → Nat) a + S1x2048.size a ≤ S64x2048.size a
  inb_S64x1_S1x1_4_0 : ∀ a, (![4, 0] : Fin 2 → Nat) a + S1x1.size a ≤ S64x1.size a
  inb_S256x64_S256x1_0_5 : ∀ a, (![0, 5] : Fin 2 → Nat) a + S256x1.size a ≤ S256x64.size a
  inb_S64x2048_S1x2048_5_0 : ∀ a, (![5, 0] : Fin 2 → Nat) a + S1x2048.size a ≤ S64x2048.size a
  inb_S64x1_S1x1_5_0 : ∀ a, (![5, 0] : Fin 2 → Nat) a + S1x1.size a ≤ S64x1.size a
  inb_S256x64_S256x1_0_6 : ∀ a, (![0, 6] : Fin 2 → Nat) a + S256x1.size a ≤ S256x64.size a
  inb_S64x2048_S1x2048_6_0 : ∀ a, (![6, 0] : Fin 2 → Nat) a + S1x2048.size a ≤ S64x2048.size a
  inb_S64x1_S1x1_6_0 : ∀ a, (![6, 0] : Fin 2 → Nat) a + S1x1.size a ≤ S64x1.size a
  inb_S256x64_S256x1_0_7 : ∀ a, (![0, 7] : Fin 2 → Nat) a + S256x1.size a ≤ S256x64.size a
  inb_S64x2048_S1x2048_7_0 : ∀ a, (![7, 0] : Fin 2 → Nat) a + S1x2048.size a ≤ S64x2048.size a
  inb_S64x1_S1x1_7_0 : ∀ a, (![7, 0] : Fin 2 → Nat) a + S1x1.size a ≤ S64x1.size a
  inb_S256x64_S256x1_0_8 : ∀ a, (![0, 8] : Fin 2 → Nat) a + S256x1.size a ≤ S256x64.size a
  inb_S64x2048_S1x2048_8_0 : ∀ a, (![8, 0] : Fin 2 → Nat) a + S1x2048.size a ≤ S64x2048.size a
  inb_S64x1_S1x1_8_0 : ∀ a, (![8, 0] : Fin 2 → Nat) a + S1x1.size a ≤ S64x1.size a
  inb_S256x64_S256x1_0_9 : ∀ a, (![0, 9] : Fin 2 → Nat) a + S256x1.size a ≤ S256x64.size a
  inb_S64x2048_S1x2048_9_0 : ∀ a, (![9, 0] : Fin 2 → Nat) a + S1x2048.size a ≤ S64x2048.size a
  inb_S64x1_S1x1_9_0 : ∀ a, (![9, 0] : Fin 2 → Nat) a + S1x1.size a ≤ S64x1.size a
  inb_S256x64_S256x1_0_10 : ∀ a, (![0, 10] : Fin 2 → Nat) a + S256x1.size a ≤ S256x64.size a
  inb_S64x2048_S1x2048_10_0 : ∀ a, (![10, 0] : Fin 2 → Nat) a + S1x2048.size a ≤ S64x2048.size a
  inb_S64x1_S1x1_10_0 : ∀ a, (![10, 0] : Fin 2 → Nat) a + S1x1.size a ≤ S64x1.size a
  inb_S256x64_S256x1_0_11 : ∀ a, (![0, 11] : Fin 2 → Nat) a + S256x1.size a ≤ S256x64.size a
  inb_S64x2048_S1x2048_11_0 : ∀ a, (![11, 0] : Fin 2 → Nat) a + S1x2048.size a ≤ S64x2048.size a
  inb_S64x1_S1x1_11_0 : ∀ a, (![11, 0] : Fin 2 → Nat) a + S1x1.size a ≤ S64x1.size a
  inb_S256x64_S256x1_0_12 : ∀ a, (![0, 12] : Fin 2 → Nat) a + S256x1.size a ≤ S256x64.size a
  inb_S64x2048_S1x2048_12_0 : ∀ a, (![12, 0] : Fin 2 → Nat) a + S1x2048.size a ≤ S64x2048.size a
  inb_S64x1_S1x1_12_0 : ∀ a, (![12, 0] : Fin 2 → Nat) a + S1x1.size a ≤ S64x1.size a
  inb_S256x64_S256x1_0_13 : ∀ a, (![0, 13] : Fin 2 → Nat) a + S256x1.size a ≤ S256x64.size a
  inb_S64x2048_S1x2048_13_0 : ∀ a, (![13, 0] : Fin 2 → Nat) a + S1x2048.size a ≤ S64x2048.size a
  inb_S64x1_S1x1_13_0 : ∀ a, (![13, 0] : Fin 2 → Nat) a + S1x1.size a ≤ S64x1.size a
  inb_S256x64_S256x1_0_14 : ∀ a, (![0, 14] : Fin 2 → Nat) a + S256x1.size a ≤ S256x64.size a
  inb_S64x2048_S1x2048_14_0 : ∀ a, (![14, 0] : Fin 2 → Nat) a + S1x2048.size a ≤ S64x2048.size a
  inb_S64x1_S1x1_14_0 : ∀ a, (![14, 0] : Fin 2 → Nat) a + S1x1.size a ≤ S64x1.size a
  inb_S256x64_S256x1_0_15 : ∀ a, (![0, 15] : Fin 2 → Nat) a + S256x1.size a ≤ S256x64.size a
  inb_S64x2048_S1x2048_15_0 : ∀ a, (![15, 0] : Fin 2 → Nat) a + S1x2048.size a ≤ S64x2048.size a
  inb_S64x1_S1x1_15_0 : ∀ a, (![15, 0] : Fin 2 → Nat) a + S1x1.size a ≤ S64x1.size a
  inb_S256x64_S256x1_0_16 : ∀ a, (![0, 16] : Fin 2 → Nat) a + S256x1.size a ≤ S256x64.size a
  inb_S64x2048_S1x2048_16_0 : ∀ a, (![16, 0] : Fin 2 → Nat) a + S1x2048.size a ≤ S64x2048.size a
  inb_S64x1_S1x1_16_0 : ∀ a, (![16, 0] : Fin 2 → Nat) a + S1x1.size a ≤ S64x1.size a
  inb_S256x64_S256x1_0_17 : ∀ a, (![0, 17] : Fin 2 → Nat) a + S256x1.size a ≤ S256x64.size a
  inb_S64x2048_S1x2048_17_0 : ∀ a, (![17, 0] : Fin 2 → Nat) a + S1x2048.size a ≤ S64x2048.size a
  inb_S64x1_S1x1_17_0 : ∀ a, (![17, 0] : Fin 2 → Nat) a + S1x1.size a ≤ S64x1.size a
  inb_S256x64_S256x1_0_18 : ∀ a, (![0, 18] : Fin 2 → Nat) a + S256x1.size a ≤ S256x64.size a
  inb_S64x2048_S1x2048_18_0 : ∀ a, (![18, 0] : Fin 2 → Nat) a + S1x2048.size a ≤ S64x2048.size a
  inb_S64x1_S1x1_18_0 : ∀ a, (![18, 0] : Fin 2 → Nat) a + S1x1.size a ≤ S64x1.size a
  inb_S256x64_S256x1_0_19 : ∀ a, (![0, 19] : Fin 2 → Nat) a + S256x1.size a ≤ S256x64.size a
  inb_S64x2048_S1x2048_19_0 : ∀ a, (![19, 0] : Fin 2 → Nat) a + S1x2048.size a ≤ S64x2048.size a
  inb_S64x1_S1x1_19_0 : ∀ a, (![19, 0] : Fin 2 → Nat) a + S1x1.size a ≤ S64x1.size a
  inb_S256x64_S256x1_0_20 : ∀ a, (![0, 20] : Fin 2 → Nat) a + S256x1.size a ≤ S256x64.size a
  inb_S64x2048_S1x2048_20_0 : ∀ a, (![20, 0] : Fin 2 → Nat) a + S1x2048.size a ≤ S64x2048.size a
  inb_S64x1_S1x1_20_0 : ∀ a, (![20, 0] : Fin 2 → Nat) a + S1x1.size a ≤ S64x1.size a
  inb_S256x64_S256x1_0_21 : ∀ a, (![0, 21] : Fin 2 → Nat) a + S256x1.size a ≤ S256x64.size a
  inb_S64x2048_S1x2048_21_0 : ∀ a, (![21, 0] : Fin 2 → Nat) a + S1x2048.size a ≤ S64x2048.size a
  inb_S64x1_S1x1_21_0 : ∀ a, (![21, 0] : Fin 2 → Nat) a + S1x1.size a ≤ S64x1.size a
  inb_S256x64_S256x1_0_22 : ∀ a, (![0, 22] : Fin 2 → Nat) a + S256x1.size a ≤ S256x64.size a
  inb_S64x2048_S1x2048_22_0 : ∀ a, (![22, 0] : Fin 2 → Nat) a + S1x2048.size a ≤ S64x2048.size a
  inb_S64x1_S1x1_22_0 : ∀ a, (![22, 0] : Fin 2 → Nat) a + S1x1.size a ≤ S64x1.size a
  inb_S256x64_S256x1_0_23 : ∀ a, (![0, 23] : Fin 2 → Nat) a + S256x1.size a ≤ S256x64.size a
  inb_S64x2048_S1x2048_23_0 : ∀ a, (![23, 0] : Fin 2 → Nat) a + S1x2048.size a ≤ S64x2048.size a
  inb_S64x1_S1x1_23_0 : ∀ a, (![23, 0] : Fin 2 → Nat) a + S1x1.size a ≤ S64x1.size a
  inb_S256x64_S256x1_0_24 : ∀ a, (![0, 24] : Fin 2 → Nat) a + S256x1.size a ≤ S256x64.size a
  inb_S64x2048_S1x2048_24_0 : ∀ a, (![24, 0] : Fin 2 → Nat) a + S1x2048.size a ≤ S64x2048.size a
  inb_S64x1_S1x1_24_0 : ∀ a, (![24, 0] : Fin 2 → Nat) a + S1x1.size a ≤ S64x1.size a
  inb_S256x64_S256x1_0_25 : ∀ a, (![0, 25] : Fin 2 → Nat) a + S256x1.size a ≤ S256x64.size a
  inb_S64x2048_S1x2048_25_0 : ∀ a, (![25, 0] : Fin 2 → Nat) a + S1x2048.size a ≤ S64x2048.size a
  inb_S64x1_S1x1_25_0 : ∀ a, (![25, 0] : Fin 2 → Nat) a + S1x1.size a ≤ S64x1.size a
  inb_S256x64_S256x1_0_26 : ∀ a, (![0, 26] : Fin 2 → Nat) a + S256x1.size a ≤ S256x64.size a
  inb_S64x2048_S1x2048_26_0 : ∀ a, (![26, 0] : Fin 2 → Nat) a + S1x2048.size a ≤ S64x2048.size a
  inb_S64x1_S1x1_26_0 : ∀ a, (![26, 0] : Fin 2 → Nat) a + S1x1.size a ≤ S64x1.size a
  inb_S256x64_S256x1_0_27 : ∀ a, (![0, 27] : Fin 2 → Nat) a + S256x1.size a ≤ S256x64.size a
  inb_S64x2048_S1x2048_27_0 : ∀ a, (![27, 0] : Fin 2 → Nat) a + S1x2048.size a ≤ S64x2048.size a
  inb_S64x1_S1x1_27_0 : ∀ a, (![27, 0] : Fin 2 → Nat) a + S1x1.size a ≤ S64x1.size a
  inb_S256x64_S256x1_0_28 : ∀ a, (![0, 28] : Fin 2 → Nat) a + S256x1.size a ≤ S256x64.size a
  inb_S64x2048_S1x2048_28_0 : ∀ a, (![28, 0] : Fin 2 → Nat) a + S1x2048.size a ≤ S64x2048.size a
  inb_S64x1_S1x1_28_0 : ∀ a, (![28, 0] : Fin 2 → Nat) a + S1x1.size a ≤ S64x1.size a
  inb_S256x64_S256x1_0_29 : ∀ a, (![0, 29] : Fin 2 → Nat) a + S256x1.size a ≤ S256x64.size a
  inb_S64x2048_S1x2048_29_0 : ∀ a, (![29, 0] : Fin 2 → Nat) a + S1x2048.size a ≤ S64x2048.size a
  inb_S64x1_S1x1_29_0 : ∀ a, (![29, 0] : Fin 2 → Nat) a + S1x1.size a ≤ S64x1.size a
  inb_S256x64_S256x1_0_30 : ∀ a, (![0, 30] : Fin 2 → Nat) a + S256x1.size a ≤ S256x64.size a
  inb_S64x2048_S1x2048_30_0 : ∀ a, (![30, 0] : Fin 2 → Nat) a + S1x2048.size a ≤ S64x2048.size a
  inb_S64x1_S1x1_30_0 : ∀ a, (![30, 0] : Fin 2 → Nat) a + S1x1.size a ≤ S64x1.size a
  inb_S256x64_S256x1_0_31 : ∀ a, (![0, 31] : Fin 2 → Nat) a + S256x1.size a ≤ S256x64.size a
  inb_S64x2048_S1x2048_31_0 : ∀ a, (![31, 0] : Fin 2 → Nat) a + S1x2048.size a ≤ S64x2048.size a
  inb_S64x1_S1x1_31_0 : ∀ a, (![31, 0] : Fin 2 → Nat) a + S1x1.size a ≤ S64x1.size a
  inb_S256x64_S256x1_0_32 : ∀ a, (![0, 32] : Fin 2 → Nat) a + S256x1.size a ≤ S256x64.size a
  inb_S64x2048_S1x2048_32_0 : ∀ a, (![32, 0] : Fin 2 → Nat) a + S1x2048.size a ≤ S64x2048.size a
  inb_S64x1_S1x1_32_0 : ∀ a, (![32, 0] : Fin 2 → Nat) a + S1x1.size a ≤ S64x1.size a
  inb_S256x64_S256x1_0_33 : ∀ a, (![0, 33] : Fin 2 → Nat) a + S256x1.size a ≤ S256x64.size a
  inb_S64x2048_S1x2048_33_0 : ∀ a, (![33, 0] : Fin 2 → Nat) a + S1x2048.size a ≤ S64x2048.size a
  inb_S64x1_S1x1_33_0 : ∀ a, (![33, 0] : Fin 2 → Nat) a + S1x1.size a ≤ S64x1.size a
  inb_S256x64_S256x1_0_34 : ∀ a, (![0, 34] : Fin 2 → Nat) a + S256x1.size a ≤ S256x64.size a
  inb_S64x2048_S1x2048_34_0 : ∀ a, (![34, 0] : Fin 2 → Nat) a + S1x2048.size a ≤ S64x2048.size a
  inb_S64x1_S1x1_34_0 : ∀ a, (![34, 0] : Fin 2 → Nat) a + S1x1.size a ≤ S64x1.size a
  inb_S256x64_S256x1_0_35 : ∀ a, (![0, 35] : Fin 2 → Nat) a + S256x1.size a ≤ S256x64.size a
  inb_S64x2048_S1x2048_35_0 : ∀ a, (![35, 0] : Fin 2 → Nat) a + S1x2048.size a ≤ S64x2048.size a
  inb_S64x1_S1x1_35_0 : ∀ a, (![35, 0] : Fin 2 → Nat) a + S1x1.size a ≤ S64x1.size a
  inb_S256x64_S256x1_0_36 : ∀ a, (![0, 36] : Fin 2 → Nat) a + S256x1.size a ≤ S256x64.size a
  inb_S64x2048_S1x2048_36_0 : ∀ a, (![36, 0] : Fin 2 → Nat) a + S1x2048.size a ≤ S64x2048.size a
  inb_S64x1_S1x1_36_0 : ∀ a, (![36, 0] : Fin 2 → Nat) a + S1x1.size a ≤ S64x1.size a
  inb_S256x64_S256x1_0_37 : ∀ a, (![0, 37] : Fin 2 → Nat) a + S256x1.size a ≤ S256x64.size a
  inb_S64x2048_S1x2048_37_0 : ∀ a, (![37, 0] : Fin 2 → Nat) a + S1x2048.size a ≤ S64x2048.size a
  inb_S64x1_S1x1_37_0 : ∀ a, (![37, 0] : Fin 2 → Nat) a + S1x1.size a ≤ S64x1.size a
  inb_S256x64_S256x1_0_38 : ∀ a, (![0, 38] : Fin 2 → Nat) a + S256x1.size a ≤ S256x64.size a
  inb_S64x2048_S1x2048_38_0 : ∀ a, (![38, 0] : Fin 2 → Nat) a + S1x2048.size a ≤ S64x2048.size a
  inb_S64x1_S1x1_38_0 : ∀ a, (![38, 0] : Fin 2 → Nat) a + S1x1.size a ≤ S64x1.size a
  inb_S256x64_S256x1_0_39 : ∀ a, (![0, 39] : Fin 2 → Nat) a + S256x1.size a ≤ S256x64.size a
  inb_S64x2048_S1x2048_39_0 : ∀ a, (![39, 0] : Fin 2 → Nat) a + S1x2048.size a ≤ S64x2048.size a
  inb_S64x1_S1x1_39_0 : ∀ a, (![39, 0] : Fin 2 → Nat) a + S1x1.size a ≤ S64x1.size a
  inb_S256x64_S256x1_0_40 : ∀ a, (![0, 40] : Fin 2 → Nat) a + S256x1.size a ≤ S256x64.size a
  inb_S64x2048_S1x2048_40_0 : ∀ a, (![40, 0] : Fin 2 → Nat) a + S1x2048.size a ≤ S64x2048.size a
  inb_S64x1_S1x1_40_0 : ∀ a, (![40, 0] : Fin 2 → Nat) a + S1x1.size a ≤ S64x1.size a
  inb_S256x64_S256x1_0_41 : ∀ a, (![0, 41] : Fin 2 → Nat) a + S256x1.size a ≤ S256x64.size a
  inb_S64x2048_S1x2048_41_0 : ∀ a, (![41, 0] : Fin 2 → Nat) a + S1x2048.size a ≤ S64x2048.size a
  inb_S64x1_S1x1_41_0 : ∀ a, (![41, 0] : Fin 2 → Nat) a + S1x1.size a ≤ S64x1.size a
  inb_S256x64_S256x1_0_42 : ∀ a, (![0, 42] : Fin 2 → Nat) a + S256x1.size a ≤ S256x64.size a
  inb_S64x2048_S1x2048_42_0 : ∀ a, (![42, 0] : Fin 2 → Nat) a + S1x2048.size a ≤ S64x2048.size a
  inb_S64x1_S1x1_42_0 : ∀ a, (![42, 0] : Fin 2 → Nat) a + S1x1.size a ≤ S64x1.size a
  inb_S256x64_S256x1_0_43 : ∀ a, (![0, 43] : Fin 2 → Nat) a + S256x1.size a ≤ S256x64.size a
  inb_S64x2048_S1x2048_43_0 : ∀ a, (![43, 0] : Fin 2 → Nat) a + S1x2048.size a ≤ S64x2048.size a
  inb_S64x1_S1x1_43_0 : ∀ a, (![43, 0] : Fin 2 → Nat) a + S1x1.size a ≤ S64x1.size a
  inb_S256x64_S256x1_0_44 : ∀ a, (![0, 44] : Fin 2 → Nat) a + S256x1.size a ≤ S256x64.size a
  inb_S64x2048_S1x2048_44_0 : ∀ a, (![44, 0] : Fin 2 → Nat) a + S1x2048.size a ≤ S64x2048.size a
  inb_S64x1_S1x1_44_0 : ∀ a, (![44, 0] : Fin 2 → Nat) a + S1x1.size a ≤ S64x1.size a
  inb_S256x64_S256x1_0_45 : ∀ a, (![0, 45] : Fin 2 → Nat) a + S256x1.size a ≤ S256x64.size a
  inb_S64x2048_S1x2048_45_0 : ∀ a, (![45, 0] : Fin 2 → Nat) a + S1x2048.size a ≤ S64x2048.size a
  inb_S64x1_S1x1_45_0 : ∀ a, (![45, 0] : Fin 2 → Nat) a + S1x1.size a ≤ S64x1.size a
  inb_S256x64_S256x1_0_46 : ∀ a, (![0, 46] : Fin 2 → Nat) a + S256x1.size a ≤ S256x64.size a
  inb_S64x2048_S1x2048_46_0 : ∀ a, (![46, 0] : Fin 2 → Nat) a + S1x2048.size a ≤ S64x2048.size a
  inb_S64x1_S1x1_46_0 : ∀ a, (![46, 0] : Fin 2 → Nat) a + S1x1.size a ≤ S64x1.size a
  inb_S256x64_S256x1_0_47 : ∀ a, (![0, 47] : Fin 2 → Nat) a + S256x1.size a ≤ S256x64.size a
  inb_S64x2048_S1x2048_47_0 : ∀ a, (![47, 0] : Fin 2 → Nat) a + S1x2048.size a ≤ S64x2048.size a
  inb_S64x1_S1x1_47_0 : ∀ a, (![47, 0] : Fin 2 → Nat) a + S1x1.size a ≤ S64x1.size a
  inb_S256x64_S256x1_0_48 : ∀ a, (![0, 48] : Fin 2 → Nat) a + S256x1.size a ≤ S256x64.size a
  inb_S64x2048_S1x2048_48_0 : ∀ a, (![48, 0] : Fin 2 → Nat) a + S1x2048.size a ≤ S64x2048.size a
  inb_S64x1_S1x1_48_0 : ∀ a, (![48, 0] : Fin 2 → Nat) a + S1x1.size a ≤ S64x1.size a
  inb_S256x64_S256x1_0_49 : ∀ a, (![0, 49] : Fin 2 → Nat) a + S256x1.size a ≤ S256x64.size a
  inb_S64x2048_S1x2048_49_0 : ∀ a, (![49, 0] : Fin 2 → Nat) a + S1x2048.size a ≤ S64x2048.size a
  inb_S64x1_S1x1_49_0 : ∀ a, (![49, 0] : Fin 2 → Nat) a + S1x1.size a ≤ S64x1.size a
  inb_S256x64_S256x1_0_50 : ∀ a, (![0, 50] : Fin 2 → Nat) a + S256x1.size a ≤ S256x64.size a
  inb_S64x2048_S1x2048_50_0 : ∀ a, (![50, 0] : Fin 2 → Nat) a + S1x2048.size a ≤ S64x2048.size a
  inb_S64x1_S1x1_50_0 : ∀ a, (![50, 0] : Fin 2 → Nat) a + S1x1.size a ≤ S64x1.size a
  inb_S256x64_S256x1_0_51 : ∀ a, (![0, 51] : Fin 2 → Nat) a + S256x1.size a ≤ S256x64.size a
  inb_S64x2048_S1x2048_51_0 : ∀ a, (![51, 0] : Fin 2 → Nat) a + S1x2048.size a ≤ S64x2048.size a
  inb_S64x1_S1x1_51_0 : ∀ a, (![51, 0] : Fin 2 → Nat) a + S1x1.size a ≤ S64x1.size a
  inb_S256x64_S256x1_0_52 : ∀ a, (![0, 52] : Fin 2 → Nat) a + S256x1.size a ≤ S256x64.size a
  inb_S64x2048_S1x2048_52_0 : ∀ a, (![52, 0] : Fin 2 → Nat) a + S1x2048.size a ≤ S64x2048.size a
  inb_S64x1_S1x1_52_0 : ∀ a, (![52, 0] : Fin 2 → Nat) a + S1x1.size a ≤ S64x1.size a
  inb_S256x64_S256x1_0_53 : ∀ a, (![0, 53] : Fin 2 → Nat) a + S256x1.size a ≤ S256x64.size a
  inb_S64x2048_S1x2048_53_0 : ∀ a, (![53, 0] : Fin 2 → Nat) a + S1x2048.size a ≤ S64x2048.size a
  inb_S64x1_S1x1_53_0 : ∀ a, (![53, 0] : Fin 2 → Nat) a + S1x1.size a ≤ S64x1.size a
  inb_S256x64_S256x1_0_54 : ∀ a, (![0, 54] : Fin 2 → Nat) a + S256x1.size a ≤ S256x64.size a
  inb_S64x2048_S1x2048_54_0 : ∀ a, (![54, 0] : Fin 2 → Nat) a + S1x2048.size a ≤ S64x2048.size a
  inb_S64x1_S1x1_54_0 : ∀ a, (![54, 0] : Fin 2 → Nat) a + S1x1.size a ≤ S64x1.size a
  inb_S256x64_S256x1_0_55 : ∀ a, (![0, 55] : Fin 2 → Nat) a + S256x1.size a ≤ S256x64.size a
  inb_S64x2048_S1x2048_55_0 : ∀ a, (![55, 0] : Fin 2 → Nat) a + S1x2048.size a ≤ S64x2048.size a
  inb_S64x1_S1x1_55_0 : ∀ a, (![55, 0] : Fin 2 → Nat) a + S1x1.size a ≤ S64x1.size a
  inb_S256x64_S256x1_0_56 : ∀ a, (![0, 56] : Fin 2 → Nat) a + S256x1.size a ≤ S256x64.size a
  inb_S64x2048_S1x2048_56_0 : ∀ a, (![56, 0] : Fin 2 → Nat) a + S1x2048.size a ≤ S64x2048.size a
  inb_S64x1_S1x1_56_0 : ∀ a, (![56, 0] : Fin 2 → Nat) a + S1x1.size a ≤ S64x1.size a
  inb_S256x64_S256x1_0_57 : ∀ a, (![0, 57] : Fin 2 → Nat) a + S256x1.size a ≤ S256x64.size a
  inb_S64x2048_S1x2048_57_0 : ∀ a, (![57, 0] : Fin 2 → Nat) a + S1x2048.size a ≤ S64x2048.size a
  inb_S64x1_S1x1_57_0 : ∀ a, (![57, 0] : Fin 2 → Nat) a + S1x1.size a ≤ S64x1.size a
  inb_S256x64_S256x1_0_58 : ∀ a, (![0, 58] : Fin 2 → Nat) a + S256x1.size a ≤ S256x64.size a
  inb_S64x2048_S1x2048_58_0 : ∀ a, (![58, 0] : Fin 2 → Nat) a + S1x2048.size a ≤ S64x2048.size a
  inb_S64x1_S1x1_58_0 : ∀ a, (![58, 0] : Fin 2 → Nat) a + S1x1.size a ≤ S64x1.size a
  inb_S256x64_S256x1_0_59 : ∀ a, (![0, 59] : Fin 2 → Nat) a + S256x1.size a ≤ S256x64.size a
  inb_S64x2048_S1x2048_59_0 : ∀ a, (![59, 0] : Fin 2 → Nat) a + S1x2048.size a ≤ S64x2048.size a
  inb_S64x1_S1x1_59_0 : ∀ a, (![59, 0] : Fin 2 → Nat) a + S1x1.size a ≤ S64x1.size a
  inb_S256x64_S256x1_0_60 : ∀ a, (![0, 60] : Fin 2 → Nat) a + S256x1.size a ≤ S256x64.size a
  inb_S64x2048_S1x2048_60_0 : ∀ a, (![60, 0] : Fin 2 → Nat) a + S1x2048.size a ≤ S64x2048.size a
  inb_S64x1_S1x1_60_0 : ∀ a, (![60, 0] : Fin 2 → Nat) a + S1x1.size a ≤ S64x1.size a
  inb_S256x64_S256x1_0_61 : ∀ a, (![0, 61] : Fin 2 → Nat) a + S256x1.size a ≤ S256x64.size a
  inb_S64x2048_S1x2048_61_0 : ∀ a, (![61, 0] : Fin 2 → Nat) a + S1x2048.size a ≤ S64x2048.size a
  inb_S64x1_S1x1_61_0 : ∀ a, (![61, 0] : Fin 2 → Nat) a + S1x1.size a ≤ S64x1.size a
  inb_S256x64_S256x1_0_62 : ∀ a, (![0, 62] : Fin 2 → Nat) a + S256x1.size a ≤ S256x64.size a
  inb_S64x2048_S1x2048_62_0 : ∀ a, (![62, 0] : Fin 2 → Nat) a + S1x2048.size a ≤ S64x2048.size a
  inb_S64x1_S1x1_62_0 : ∀ a, (![62, 0] : Fin 2 → Nat) a + S1x1.size a ≤ S64x1.size a
  inb_S256x64_S256x1_0_63 : ∀ a, (![0, 63] : Fin 2 → Nat) a + S256x1.size a ≤ S256x64.size a
  inb_S64x2048_S1x2048_63_0 : ∀ a, (![63, 0] : Fin 2 → Nat) a + S1x2048.size a ≤ S64x2048.size a
  inb_S64x1_S1x1_63_0 : ∀ a, (![63, 0] : Fin 2 → Nat) a + S1x1.size a ≤ S64x1.size a
  inb_S1x1_S1x1_0_0 : ∀ a, (![0, 0] : Fin 2 → Nat) a + S1x1.size a ≤ S1x1.size a
  iota_S256x2048_d0_w32 : S256x2048.Iotas .tc 32 [0]
  iota_S256x2048_d1_w32 : S256x2048.Iotas .tc 32 [1]
  dot_S2048x128_S128x64_S2048x64_1_0_0_1_n_n_wf : DotDims.WF S2048x128 S128x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .f32 = 32 ∨ (Rect.block (s := S2048x2048) S256x2048.size (cc0_transform_4 i) (hinb0_4 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v6) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x128 : Shape := ⟨2, ![2048, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x64 : Shape := ⟨2, ![2048, 64]⟩
abbrev S1x64 : Shape := ⟨2, ![1, 64]⟩
abbrev S64x64 : Shape := ⟨2, ![64, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S1x1x64 : Shape := ⟨3, ![1, 1, 64]⟩
abbrev S_ : Shape := ⟨0, ![]⟩
abbrev S2048x2048x1 : Shape := ⟨3, ![2048, 2048, 1]⟩
abbrev S2048x2048 : Shape := ⟨2, ![2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2048x64, .f32⟩
  | .hbm, ⟨8, _⟩ => ⟨S1x64, .f32⟩
  | .hbm, ⟨9, _⟩ => ⟨S2048x64, .f32⟩
  | .hbm, ⟨10, _⟩ => ⟨S2048x64, .f32⟩
  | .hbm, ⟨11, _⟩ => ⟨S64x64, .f32⟩
  | .hbm, ⟨12, _⟩ => ⟨S64x64, .f32⟩
  | .hbm, ⟨13, _⟩ => ⟨S2048x64, .f32⟩
  | .hbm, ⟨14, _⟩ => ⟨S2048x64, .f32⟩
  | .hbm, ⟨15, _⟩ => ⟨S2048x1x64, .f32⟩
  | .hbm, ⟨16, _⟩ => ⟨S1x2048x64, .f32⟩
  | .hbm, ⟨17, _⟩ => ⟨S2048x2048x64, .f32⟩
  | .hbm, ⟨18, _⟩ => ⟨S2048x2048x64, .f32⟩
  | .hbm, ⟨19, _⟩ => ⟨S2048x2048x64, .f32⟩
  | .hbm, ⟨20, _⟩ => ⟨S1x1x64, .f32⟩
  | .hbm, ⟨21, _⟩ => ⟨S2048x2048x64, .f32⟩
  | .hbm, ⟨22, _⟩ => ⟨S2048x2048x64, .f32⟩
  | .hbm, ⟨23, _⟩ => ⟨S_, .f32⟩
  | .hbm, ⟨24, _⟩ => ⟨S2048x2048x64, .f32⟩
  | .hbm, ⟨25, _⟩ => ⟨S2048x2048x64, .f32⟩
  | .hbm, ⟨26, _⟩ => ⟨S2048x2048x1, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .i32⟩
  | .hbm, ⟨40, _⟩ => ⟨S2048x2048, .i32⟩
  | .hbm, ⟨41, _⟩ => ⟨S_, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  slices_S128x64_S64x64_0_0 : S128x64.Slices ![0, 0] S64x64
  slices_S128x64_S64x64_64_0 : S128x64.Slices ![64, 0] S64x64
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  bcast_S64_S1x1x64_2 : S64.BroadcastsInDim S1x1x64 (![2] : Fin 1 → Fin S1x1x64.rank)
  bcast_S1x1x64_S2048x2048x64_0_1_2 : S1x1x64.BroadcastsInDim S2048x2048x64 (![0, 1, 2] : Fin 3 → Fin S2048x2048x64.rank)
  bcast_S_S2048x2048x64 : S_.BroadcastsInDim S2048x2048x64 (![] : Fin 0 → Fin S2048x2048x64.rank)
  shapeCasts_S2048x2048x1_S2048x2048 : S2048x2048x1.ShapeCasts S2048x2048
  shapeCasts_S1_S_ : S1.ShapeCasts S_
  bcast_S_S2048x2048 : S_.BroadcastsInDim S2048x2048 (![] : Fin 0 → Fin S2048x2048.rank)
  dot_S2048x128_S128x64_S2048x64_1_0_0_1_n_n_wf : DotDims.WF S2048x128 S128x64 S2048x64 [1] [0] [0] [1] [] []
  dot_S2048x64_S64x64_S2048x64_1_0_0_1_n_n_wf : DotDims.WF S2048x64 S64x64 S2048x64 [1] [0] [0] [1] [] []
  dot_S2048x2048x64_S64x1_S2048x2048x1_2_0_01_1_n_n_wf : DotDims.WF S2048x2048x64 S64x1 S2048x2048x1 [2] [0] [0, 1] [1] [] []

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048x64_S64x1_S2048x2048x1_2_0_01_1_n_n : DotDims S2048x2048x64 S64x1 S2048x2048x1 where
  lhsContracting := [2]
  rhsContracting := [0]
  lhsNonContracting := [0, 1]
  rhsNonContracting := [1]
  lhsBatch := []
  rhsBatch := []
  wf := dot_S2048x2048x64_S64x1_S2048x2048x1_2_0_01_1_n_n_wf

class Facts : Prop extends Facts₀ where

variable [Facts]
-- ==== Proof.EdgeLaw.lean ====
/-
  The scalar mathematics of one entry of the pairwise edge table, over the extended reals.

  For a pair (i, j) of nodes the entry is zero on the diagonal and otherwise the logistic of the score
  `∑ₖ max (aₖ + bₖ) 0 · wₖ + b₂`, `a` the source node's projection, `b` the target node's (the first layer's bias
  already added), `w` the second layer's weights. Two ways of computing it are set side by side here:
    • a running total that starts at zero and adds one hidden unit's term per step, masked at the end by a
      selection on the diagonal bit;
    • the finite sum, the logistic spelt `1 / (1 + e^(-s))`, masked by the product with `1 - [i = j]`.
  Addition on the extended reals is commutative and associative, `t · 0 = 0` and `t · 1 = t` for every `t`, so
  no finiteness is needed anywhere.
-/
import Idealize.ShloMosaic.PureOps.Ideal.Laws
import Idealize.ShloMosaic.Lib.IdealHost
import Idealize.ShloMosaic.Lib.ValueIdx

noncomputable section

namespace Cert.PairwiseEdge

open Idealize.ShloMosaic

/-- One hidden unit's contribution to a pair's score: the rectified sum of the two projections, weighted. -/
def unitTerm (a b w : EReal) : EReal := max (a + b) 0 * w

/-- The running total after `n` hidden units: zero, then one more unit's term added on the right per step. -/
def running (f : ℕ → EReal) : ℕ → EReal
  | 0 => 0
  | n + 1 => running f n + f n

/-- The running total after `n` steps is the sum of the first `n` terms. -/
theorem running_eq_sum (f : ℕ → EReal) (n : ℕ) : running f n = ∑ k ∈ Finset.range n, f k := by
  induction n with
  | zero => simp [running]
  | succ n ih => rw [running, ih, Finset.sum_range_succ]

/-- … and, over the first `n` naturals read as `Fin n`, the sum over `Fin n`. -/
theorem running_eq_sum_fin (n : ℕ) (f : ℕ → EReal) (g : Fin n → EReal) (h : ∀ k : Fin n, f k.val = g k) :
    running f n = ∑ k : Fin n, g k := by
  rw [running_eq_sum, Finset.sum_range]
  exact Finset.sum_congr rfl fun k _ => h k

/-- The entry of the table: zero where the diagonal bit is set, the logistic of the score elsewhere. -/
def edge (d : BitVec 1) (s : EReal) : EReal := Scalar.select d 0 (Ideal.logistic s)

/-- The logistic spelt out and masked by the product with `1 - [diagonal]` is the selection: on the diagonal
    `t · (1 - 1) = t · 0 = 0`, off it `t · (1 - 0) = t`. -/
theorem masked_eq_edge (d : BitVec 1) (s : EReal) :
    Ideal.div 1 (1 + Ideal.exp (-s)) * ((1 : EReal) - (((d.toNat : ℕ) : ℝ) : EReal)) = edge d s := by
  have hd : d = 1#1 ∨ d = 0#1 := by
    by_cases h : d = 1#1
    · exact Or.inl h
    · exact Or.inr (ValueIdx.eq_zero_of_ne_one h)
  unfold edge
  rcases hd with rfl | rfl
  · rw [ValueIdx.select_one]
    have h1 : (((((1#1 : BitVec 1).toNat : ℕ) : ℝ)) : EReal) = ((1 : ℝ) : EReal) := by norm_num
    have : ((1 : EReal) - (((((1#1 : BitVec 1).toNat : ℕ) : ℝ)) : EReal)) = 0 := by
      rw [h1, ← EReal.coe_one, ← EReal.coe_sub, sub_self, EReal.coe_zero]
    rw [this, mul_zero]
  · rw [ValueIdx.select_zero]
    have : ((1 : EReal) - (((((0#1 : BitVec 1).toNat : ℕ) : ℝ)) : EReal)) = 1 := by
      norm_num
    rw [this, mul_one]
    rfl

/-- The two programs' diagonal bits are one bit: a row tile's number times the tile height plus the row inside the
    tile, compared with the column, all as 32-bit words. -/
theorem diag_bit (t p q : ℕ) :
    IntOp.cmpi .eq (IntOp.addi (IntOp.muli (BitVec.ofNat 32 t) 256#32) (BitVec.ofNat 32 (0 * 256 + p))) (BitVec.ofNat 32 (0 * 2048 + q))
      = IntOp.cmpi .eq (IntOp.addi (BitVec.ofNat 32 (t * 256 + p)) 0#32) (BitVec.ofNat 32 q) := by
  have e1 : IntOp.addi (IntOp.muli (BitVec.ofNat 32 t) 256#32) (BitVec.ofNat 32 (0 * 256 + p))
      = IntOp.addi (BitVec.ofNat 32 (t * 256 + p)) 0#32 := by
    unfold IntOp.addi IntOp.muli
    apply BitVec.eq_of_toNat_eq
    simp only [BitVec.toNat_add, BitVec.toNat_mul, BitVec.toNat_ofNat]
    omega
  rw [e1, Nat.zero_mul, Nat.zero_add]

/-- THE TABLE, as one function of four arrays: `A` the source projections (one row per node), `BT` the target
    projections with the first layer's bias added, transposed (one column per node), `W` the second layer's weight
    column, `b2` its bias. Entry (i, j) is `edge` of the diagonal bit (row and column numbers compared as 32-bit
    words) and of the score `∑ₖ max (A i k + BT k j) 0 · W k + b2`. -/
def table (A : (⟨2, ![2048, 64]⟩ : Shape).Idx → EReal) (BT : (⟨2, ![64, 2048]⟩ : Shape).Idx → EReal)
    (W : (⟨2, ![64, 1]⟩ : Shape).Idx → EReal) (b2 : EReal) : (⟨2, ![2048, 2048]⟩ : Shape).Idx → EReal :=
  fun j => edge (IntOp.cmpi .eq (IntOp.addi (BitVec.ofNat 32 (j 0).val) 0#32) (BitVec.ofNat 32 (j 1).val))
    ((∑ k : Fin 64, unitTerm (A (ValueIdx.ix2 (j 0) k)) (BT (ValueIdx.ix2 k (j 1))) (W (ValueIdx.ix2 k (0 : Fin 1)))) + b2)

end Cert.PairwiseEdge

end
-- ==== Proof.RefTable.lean ====
/-
  The reference program's result array is the pairwise edge table.

  The reference computes, for every pair (i, j) of nodes, the score
      s(i, j) = ∑ₖ max ((a[i,k] + b[j,k]) + b₁[k]) 0 · w[k] + b₂,
  then the logistic 1 / (1 + e^(-s)), and multiplies it by 1 - [i = j], the bit [i = j] computed on 32-bit words
  from the row and column numbers. Read at one entry, every stage is a function of its operands at one index
  (a broadcast forgets coordinates, a reshape keeps the row-major position, a contraction is a finite sum), so the
  entry is the table's: the mask by multiplication is the selection on the diagonal bit, and the first layer's
  bias moves from the outside of the sum a + b to the second summand because addition on the extended reals is
  associative.
-/
import proofs.«131692_j12214886990283_1_alg».proof.Proof.Gen.ReferenceIdeal.Read
import proofs.«131692_j12214886990283_1_alg».proof.Proof.EdgeLaw
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.PairwiseEdge

/-! ### The diagonal bit and the mask -/

/-- The diagonal bit at an entry: the row number plus zero, compared with the column number, as 32-bit words. -/
theorem bit_apply (i : S2048x2048.Idx) :
    val_main_v32 (F := Ideal) i
      = IntOp.cmpi .eq (IntOp.addi (BitVec.ofNat 32 (i 0).val) 0#32) (BitVec.ofNat 32 (i 1).val) := by
  rw [val_main_v32_apply, val_main_v31_apply, val_main_v28_apply, val_main_v29_apply, val_main_v30_apply,
    val_main_c_apply]

/-- The mask at an entry: one minus the diagonal bit read as a real number. -/
theorem mask_apply (i : S2048x2048.Idx) :
    val_main_v35 (F := Ideal) i
      = (1 : EReal) - ((((IntOp.cmpi .eq (IntOp.addi (BitVec.ofNat 32 (i 0).val) 0#32) (BitVec.ofNat 32 (i 1).val)).toNat : ℕ) : ℝ) : EReal) := by
  rw [val_main_v35_apply, val_main_v34_apply, val_main_cst_1_apply, val_main_v33_apply, bit_apply,
    Ideal.subf_def, Ideal.ofBits_def, Ideal.ofBits_one_f32]
  rfl

/-! ### The second layer's bias -/

/-- The second layer's bias, reshaped to a scalar and broadcast over the table, is the one element of its array at
    every entry: a one-element array and a scalar both have the single row-major position 0. -/
theorem bias2_apply (x6 : (⟨S1, .f32⟩ : BufTy).Contents (Elt Ideal)) (i : S2048x2048.Idx) :
    val_main_v20 (F := Ideal) x6 i = x6 (ix1 (0 : Fin 1)) := by
  rw [val_main_v20_apply]
  unfold val_main_v19
  exact shapeCast_apply x6 shapeCasts_S1_S_ _ (ix1 (0 : Fin 1))
    (by rw [Shape.rowMajor_val_one]; exact (Shape.rowMajorPi_zero _ _).symm)

/-! ### One hidden unit -/

/-- One hidden unit's rectified input at the pair (i₀, i₁): the source node's projection plus the target node's,
    plus the first layer's bias, against zero. The two projections are read at (i₀, k) and (i₁, k): the reshape's
    row-major position i₀ · 2048 + i₁ splits back into i₀ and i₁. -/
theorem hidden_apply (x0 : (⟨S2048x128, .f32⟩ : BufTy).Contents (Elt Ideal)) (x1 : (⟨S128x64, .f32⟩ : BufTy).Contents (Elt Ideal))
    (x2 : (⟨S64, .f32⟩ : BufTy).Contents (Elt Ideal)) (x3 : (⟨S128x64, .f32⟩ : BufTy).Contents (Elt Ideal))
    (x4 : (⟨S64, .f32⟩ : BufTy).Contents (Elt Ideal)) (i : S2048x2048.Idx) (k : Fin 64) :
    val_main_v16 (F := Ideal) x0 x1 x2 x3 x4 (lidx_main_v17 (idx_main_v18 i) k)
      = max ((val_main_v6 (F := Ideal) x0 x1 x2 x3 (ix2 (i 0) k) + val_main_v7 (F := Ideal) x0 x1 x2 x3 (ix2 (i 1) k))
              + x4 (ix1 k)) 0 := by
  have h0 : (i 0).val < 2048 := (i 0).isLt
  have h1 : (i 1).val < 2048 := (i 1).isLt
  have eA : idx_main_v8 (idx_main_v10 (lidx_main_v17 (idx_main_v18 i) k)) = ix2 (i 0) k :=
    funext fun a => Fin.ext (by
      match a with
      | ⟨0, _⟩ => show ((i 0).val * 2048 + (i 1).val) / 2048 = (i 0).val; omega
      | ⟨1, _⟩ => rfl)
  have eB : idx_main_v9 (idx_main_v11 (lidx_main_v17 (idx_main_v18 i) k)) = ix2 (i 1) k :=
    funext fun a => Fin.ext (by
      match a with
      | ⟨0, _⟩ => show ((i 0).val * 2048 + (i 1).val) / 1 % 2048 = (i 1).val; omega
      | ⟨1, _⟩ => rfl)
  have eC : idx_main_v13 (idx_main_v14 (lidx_main_v17 (idx_main_v18 i) k)) = ix1 k :=
    funext fun a => Fin.ext (by
      match a with
      | ⟨0, _⟩ => rfl)
  rw [val_main_v16_apply, val_main_v15_apply, val_main_v12_apply, val_main_v10_apply, val_main_v8_apply,
    val_main_v11_apply, val_main_v9_apply, val_main_v14_apply, val_main_v13_apply, val_main_call0_v0_apply,
    val_main_call0_cst_apply, eA, eB, eC, Ideal.maximumf_def, Ideal.addf_def, Ideal.addf_def, Ideal.ofBits_def,
    Ideal.ofBits_zero_f32]
  rfl

/-- The score's sum at the pair (i₀, i₁), one term per hidden unit. -/
theorem score_apply (x0 : (⟨S2048x128, .f32⟩ : BufTy).Contents (Elt Ideal)) (x1 : (⟨S128x64, .f32⟩ : BufTy).Contents (Elt Ideal))
    (x2 : (⟨S64, .f32⟩ : BufTy).Contents (Elt Ideal)) (x3 : (⟨S128x64, .f32⟩ : BufTy).Contents (Elt Ideal))
    (x4 : (⟨S64, .f32⟩ : BufTy).Contents (Elt Ideal)) (x5 : (⟨S64x1, .f32⟩ : BufTy).Contents (Elt Ideal)) (i : S2048x2048.Idx) :
    val_main_v18 (F := Ideal) x0 x1 x2 x3 x4 x5 i
      = ∑ k : Fin 64, unitTerm (val_main_v6 (F := Ideal) x0 x1 x2 x3 (ix2 (i 0) k))
          (val_main_v7 (F := Ideal) x0 x1 x2 x3 (ix2 (i 1) k) + x4 (ix1 k)) (x5 (ix2 k (0 : Fin 1))) := by
  rw [val_main_v18_apply, val_main_v17_apply]
  refine Finset.sum_congr rfl fun k _ => ?_
  have eW : ridx_main_v17 (idx_main_v18 i) k = ix2 k (0 : Fin 1) :=
    funext fun a => Fin.ext (by
      match a with
      | ⟨0, _⟩ => rfl
      | ⟨1, _⟩ => rfl)
  rw [hidden_apply, eW, unitTerm, add_assoc]

/-! ### The table -/

theorem ref_table (x0 : (⟨S2048x128, .f32⟩ : BufTy).Contents (Elt Ideal)) (x1 : (⟨S128x64, .f32⟩ : BufTy).Contents (Elt Ideal)) (x2 : (⟨S64, .f32⟩ : BufTy).Contents (Elt Ideal)) (x3 : (⟨S128x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) :
    val_main_v36 (F := Ideal) x0 x1 x2 x3 x4 x5 x6
      = table (val_main_v6 (F := Ideal) x0 x1 x2 x3)
          (fun j => val_main_v7 (F := Ideal) x0 x1 x2 x3 (ix2 (j 1) (j 0)) + x4 (ix1 (j 0)))
          x5 (x6 (ix1 (0 : Fin 1))) := by
  funext i
  rw [val_main_v36_apply, val_main_v27_apply, val_main_v26_apply, val_main_cst_0_apply, val_main_v25_apply,
    val_main_v24_apply, val_main_cst_apply, val_main_v23_apply, val_main_v22_apply, val_main_v21_apply,
    score_apply, bias2_apply, mask_apply, Ideal.mulf_def, Ideal.hostDivf_def, Ideal.addf_def, Ideal.addf_def,
    Ideal.hostUnary_exp_def, Ideal.hostNegf_def, Ideal.negf_def, Ideal.ofBits_def, Ideal.ofBits_one_f32,
    masked_eq_edge]
  rfl

end Cert.ReferenceIdeal.RefValue

end
-- ==== Proof.KernelHost.lean ====
/-
  What the kernel's launch finds in its operand arrays.

  Before its one region the kernel's program computes, on the host, the encoder output
  `h = X · W_enc + b_enc` (the bias a row broadcast down the 2048 nodes), the two projections
  `a = h · W1[0:64]` and `b = h · W1[64:128]`, the transpose of `b` with the first layer's bias added to each row
  (entry `(k, j)` is `b j k + b1 k`), and the second layer's bias reshaped from one element to a 1 × 1 array.
  This module reads those arrays back as functions of the seven arguments: `hostA` and `hostB` are the two
  projections as the program spells them, the region's second operand is `hostB` transposed plus the bias, its
  fourth the bias element itself. The same two projections open the reference program, operation for operation.
-/
import proofs.«131692_j12214886990283_1_alg».proof.Proof.Gen.KernelIdeal.Frame
import proofs.«131692_j12214886990283_1_alg».proof.Proof.Gen.ReferenceIdeal.Read
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.ValueIdx

variable {F : FTy → Type} [FloatOps F]

/-- The source projection `a = (X · W_enc + b_enc) · W1[0:64]`, as the host operations before the region spell it:
    a product, the bias broadcast to a row and then down the rows, a sum, the upper half of `W1` sliced out, a product. -/
def hostA (x0 : Vec F S2048x128 .f32) (x1 : Vec F S128x64 .f32) (x2 : Vec F S64 .f32) (x3 : Vec F S128x64 .f32) : Vec F S2048x64 .f32 :=
  Host.dotGeneral dot_S2048x64_S64x64_S2048x64_1_0_0_1_n_n none
    (addf (Host.dotGeneral dot_S2048x128_S128x64_S2048x64_1_0_0_1_n_n none x0 x1)
      (broadcastInDim S2048x64 ![0, 1] bcast_S1x64_S2048x64_0_1 (broadcastInDim S1x64 ![1] bcast_S64_S1x64_1 x2)))
    (extractStridedSlice S64x64 ![0, 0] x3 slices_S128x64_S64x64_0_0)

/-- The target projection `b = (X · W_enc + b_enc) · W1[64:128]`: the same with the lower half of `W1`. -/
def hostB (x0 : Vec F S2048x128 .f32) (x1 : Vec F S128x64 .f32) (x2 : Vec F S64 .f32) (x3 : Vec F S128x64 .f32) : Vec F S2048x64 .f32 :=
  Host.dotGeneral dot_S2048x64_S64x64_S2048x64_1_0_0_1_n_n none
    (addf (Host.dotGeneral dot_S2048x128_S128x64_S2048x64_1_0_0_1_n_n none x0 x1)
      (broadcastInDim S2048x64 ![0, 1] bcast_S1x64_S2048x64_0_1 (broadcastInDim S1x64 ![1] bcast_S64_S1x64_1 x2)))
    (extractStridedSlice S64x64 ![64, 0] x3 slices_S128x64_S64x64_64_0)

section AtLaunch

variable (m : (ℓ : Loc nD τ sig) → Buf (Elt F) ℓ)

/-- The region's first operand is the source projection of the launch contents of the first four arguments. -/
theorem V_main_v6 (c : Dev nD) :
    (V m c main_v6 : S2048x64.Idx → Elt F .f32)
      = hostA (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The region's second operand, as an array: the target projection transposed, plus the first layer's bias made a
    column and broadcast along the 2048 nodes. -/
theorem V_main_v11 (c : Dev nD) :
    (V m c main_v11 : S64x2048.Idx → Elt F .f32)
      = addf (transpose S64x2048 [1, 0]
            (hostB (m ((c : Thread nD τ).loc main_arg0)) (m ((c : Thread nD τ).loc main_arg1))
              (m ((c : Thread nD τ).loc main_arg2)) (m ((c : Thread nD τ).loc main_arg3)))
            transposes_S2048x64_S64x2048_1_0)
          (broadcastInDim S64x2048 ![0, 1] bcast_S64x1_S64x2048_0_1
            (broadcastInDim S64x1 ![0] bcast_S64_S64x1_0 (m ((c : Thread nD τ).loc main_arg4)))) := by
  dsimp only [Gen.V, Gen.hostOps0]
  after_results
  rfl

/-- The region's fourth operand, as an array: the second layer's bias, one element, recast to a 1 × 1 array. -/
theorem V_main_v12 (c : Dev nD) :
    (V m c main_v12 : S1x1.Idx → Elt F .f32)
      = shapeCast S1x1 (m ((c : Thread nD τ).loc main_arg6)) shapeCasts_S1_S1x1 := by
  dsimp only [Gen.V, Gen.hostOps0]
  after_results
  rfl

/-- Its one entry is the bias element. -/
theorem V_main_v12_apply (c : Dev nD) :
    (V m c main_v12 : S1x1.Idx → Elt F .f32) (ix2 (0 : Fin 1) (0 : Fin 1))
      = m ((c : Thread nD τ).loc main_arg6) (ix1 (0 : Fin 1)) := by
  rw [V_main_v12]
  exact shapeCast_a_1a_apply _ shapeCasts_S1_S1x1 (0 : Fin 1) (0 : Fin 1)

end AtLaunch

/-- A vector of 64 made a column and the column repeated 2048 times reads, at `(k, j)`, the vector at `k`. -/
theorem column_apply {α : Type} (x : S64.Idx → α) (k : Fin 64) (j : Fin 2048) :
    broadcastInDim S64x2048 ![0, 1] bcast_S64x1_S64x2048_0_1 (broadcastInDim S64x1 ![0] bcast_S64_S64x1_0 x) (ix2 k j)
      = x (ix1 k) := by
  rw [broadcastInDim_apply ![0, 1] bcast_S64x1_S64x2048_0_1 _ (ix2 k j) (ix2 k (0 : Fin 1)) (fun a => match a with
    | ⟨0, _⟩ => by show k.val = if (64 : Nat) = 1 then 0 else k.val; rw [if_neg (by decide)]
    | ⟨1, _⟩ => by show 0 = if (1 : Nat) = 1 then 0 else j.val; rw [if_pos rfl])]
  exact broadcastInDim_apply ![0] bcast_S64_S64x1_0 x (ix2 k (0 : Fin 1)) (ix1 k) (fun a => match a with
    | ⟨0, _⟩ => by show k.val = if (64 : Nat) = 1 then 0 else k.val; rw [if_neg (by decide)])

/-- Over the extended reals the region's second operand reads, at `(k, j)`, the target projection at `(j, k)` plus
    the first layer's bias at `k`. -/
theorem V_main_v11_apply (m : (ℓ : Loc nD τ sig) → Buf (Elt Ideal) ℓ) (c : Dev nD) (k : Fin 64) (j : Fin 2048) :
    (V m c main_v11 : S64x2048.Idx → EReal) (ix2 k j)
      = hostB (F := Ideal) (m ((c : Thread nD τ).loc main_arg0)) (m ((c : Thread nD τ).loc main_arg1))
          (m ((c : Thread nD τ).loc main_arg2)) (m ((c : Thread nD τ).loc main_arg3)) (ix2 j k)
        + m ((c : Thread nD τ).loc main_arg4) (ix1 k) := by
  rw [V_main_v11, addf_apply, transpose_ix2_apply, column_apply]

/-! ## The same two projections open the reference program -/

/-- The two programs' records of the first product's axes are one record. -/
theorem dot0_eq : dot_S2048x128_S128x64_S2048x64_1_0_0_1_n_n = Cert.ReferenceIdeal.dot_S2048x128_S128x64_S2048x64_1_0_0_1_n_n := rfl
/-- … and so are their records of the second and third products' axes. -/
theorem dot1_eq : dot_S2048x64_S64x64_S2048x64_1_0_0_1_n_n = Cert.ReferenceIdeal.dot_S2048x64_S64x64_S2048x64_1_0_0_1_n_n := rfl

/-- The reference's first seven operations are the kernel's host operations that compute the source projection. -/
theorem hostA_eq_ref (x0 : Vec Ideal S2048x128 .f32) (x1 : Vec Ideal S128x64 .f32) (x2 : Vec Ideal S64 .f32) (x3 : Vec Ideal S128x64 .f32) :
    hostA (F := Ideal) x0 x1 x2 x3 = Cert.ReferenceIdeal.Read.val_main_v6 (F := Ideal) x0 x1 x2 x3 := by
  unfold hostA Cert.ReferenceIdeal.Read.val_main_v6 Cert.ReferenceIdeal.Read.val_main_v3 Cert.ReferenceIdeal.Read.val_main_v0
    Cert.ReferenceIdeal.Read.val_main_v2 Cert.ReferenceIdeal.Read.val_main_v1 Cert.ReferenceIdeal.Read.val_main_v4
  rw [dot0_eq, dot1_eq]

/-- … and, with the lower half of `W1`, those that compute the target projection. -/
theorem hostB_eq_ref (x0 : Vec Ideal S2048x128 .f32) (x1 : Vec Ideal S128x64 .f32) (x2 : Vec Ideal S64 .f32) (x3 : Vec Ideal S128x64 .f32) :
    hostB (F := Ideal) x0 x1 x2 x3 = Cert.ReferenceIdeal.Read.val_main_v7 (F := Ideal) x0 x1 x2 x3 := by
  unfold hostB Cert.ReferenceIdeal.Read.val_main_v7 Cert.ReferenceIdeal.Read.val_main_v3 Cert.ReferenceIdeal.Read.val_main_v0
    Cert.ReferenceIdeal.Read.val_main_v2 Cert.ReferenceIdeal.Read.val_main_v1 Cert.ReferenceIdeal.Read.val_main_v5
  rw [dot0_eq, dot1_eq]

end Cert.KernelIdeal.HostValue

end
-- ==== Proof.BodyValue.lean ====
/-
  What one grid point of the pairwise kernel leaves in its output tile, as a value.

  The body keeps a running total in a scratch tile: it stores zero, then for each hidden unit h = 0 … 63 reads the
  total back, adds `max (a[:, h] + bT[h, :], 0) · w2[h]` (column h of the source tile spread along the rows, row h of
  the target table spread along the columns) and stores it again; at the end it adds the bias, applies the logistic
  and puts zero on the diagonal. A load of the whole tile after a store of the whole tile reads what was stored, so
  the sixty-five stores collapse into sixty-four applications of one step to the zero tile (`acc`), and at an entry
  (p, q) of the tile the total is the running sum of the units' terms — at the ideal values the finite sum.
-/
import proofs.«131692_j12214886990283_1_alg».proof.Proof.Gen.KernelIdeal.Frame
import proofs.«131692_j12214886990283_1_alg».proof.Proof.EdgeLaw
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem

namespace Cert.KernelIdeal.BodyValue

open Cert.KernelIdeal Cert.KernelIdeal.Gen Idealize.ShloMosaic.ValueIdx Cert.PairwiseEdge

variable {F : FTy → Type} [FloatOps F]

theorem hz : (![0, 0] : Fin 2 → Nat) = fun _ => 0 := funext fun a => by fin_cases a <;> rfl

/-! ## One step, and the running total after n steps -/

/-- Column `h` of the source tile, -/
abbrev colRect (h : ℕ) (hh : h < 64) : Rect S256x64 :=
  Rect.unit (s := S256x64) ![0, h] S256x1.size
    (Rect.inb₂ (by show 0 + 256 ≤ 256; omega) (by show h + 1 ≤ 64; omega))

/-- row `h` of the target table, -/
abbrev rowRect (h : ℕ) (hh : h < 64) : Rect S64x2048 :=
  Rect.unit (s := S64x2048) ![h, 0] S1x2048.size
    (Rect.inb₂ (by show h + 1 ≤ 64; omega) (by show 0 + 2048 ≤ 2048; omega))

/-- and entry `h` of the weight column. -/
abbrev wRect (h : ℕ) (hh : h < 64) : Rect S64x1 :=
  Rect.unit (s := S64x1) ![h, 0] S1x1.size
    (Rect.inb₂ (by show h + 1 ≤ 64; omega) (by show 0 + 1 ≤ 1; omega))

/-- Hidden unit `h`'s step on the running total `a`: `a + max (col h + row h, 0) · w h`, tile-wide. -/
def step (h : ℕ) (hh : h < 64) (x0 : Vec F S256x64 .f32) (x1 : Vec F S64x2048 .f32) (x2 : Vec F S64x1 .f32)
    (a : Vec F S256x2048 .f32) : FVec F S256x2048 .f32 :=
  k0_pay3 (View.ld x0 (colRect h hh)) (View.ld x1 (rowRect h hh)) a (View.ld x2 (wRect h hh))

/-- The running total after `n` hidden units, from the zero tile. -/
def acc (x0 : Vec F S256x64 .f32) (x1 : Vec F S64x2048 .f32) (x2 : Vec F S64x1 .f32) :
    (n : ℕ) → n ≤ 64 → FVec F S256x2048 .f32
  | 0, _ => k0_pay2
  | n + 1, hn => step n (by omega) x0 x1 x2 (acc x0 x1 x2 n (by omega))

/-! ## The scratch tile after the sixty-five stores -/

set_option hygiene false in
open Lean Elab Tactic in
/-- The stores into the scratch tile, first to last: a load of the whole tile after a store of the whole tile reads
    what was stored, whatever was stored before it; so after the first store the tile holds the zero tile, and after
    the store of hidden unit `h` it holds that unit's step of what it held before. -/
elab "read_back_stores" : tactic => do
  let pre := `Cert.KernelIdeal.Gen.kernelRun0_A.sl
  let vName (k : Nat) : Name :=
    if k == 65 then Name.mkStr pre "v1156" else Name.mkStr pre s!"v{13 + 18 * (k - 1)}"
  let v1 := mkIdent (vName 1)
  let hs1 := mkIdent (Name.mkStr pre "HS0_1")
  evalTactic (← `(tactic|
    have e0 : $v1 (F := F) c arg6 = acc x0 x1 x2 0 (Nat.zero_le 64) := by
      rw [$v1:ident, $hs1:ident, View.readCov_cons_toLoadRect]; rfl))
  for h in [0:64] do
    let v := mkIdent (vName (h + 2))
    let hs := mkIdent (Name.mkStr pre s!"HS0_{h + 2}")
    let ePrev := mkIdent (Name.mkSimple s!"e{h}")
    let eNew := mkIdent (Name.mkSimple s!"e{h + 1}")
    let n := Syntax.mkNumLit (toString (h + 1))
    if h % 2 == 0 then
      evalTactic (← `(tactic|
        have $eNew : $v c arg1 harg1 arg2 harg2 arg3 harg3 arg6 x0 x1 x2 = acc x0 x1 x2 $n (by omega) := by
          rw [$v:ident, $hs:ident, View.readCov_cons_toLoadRect, $ePrev:ident]
          simp only [View.readAt_eq_ld, harg1.read_unread, harg2.read_unread, harg3.read_unread]
          rfl))
    else
      let r1 := mkIdent (if h == 1 then Name.mkStr pre "r" else Name.mkStr pre s!"r_{h - 1}")
      let r2 := mkIdent (Name.mkStr pre s!"r_{h}")
      evalTactic (← `(tactic|
        have $eNew : $v c arg1 harg1 arg2 harg2 arg3 harg3 arg6 x0 x1 x2 = acc x0 x1 x2 $n (by omega) := by
          rw [$v:ident, $hs:ident, View.readCov_cons_toLoadRect, $ePrev:ident, $r1:ident, $r2:ident]
          simp only [View.readAt_eq_ld, harg1.read_unread, harg2.read_unread, harg3.read_unread]
          rfl))

set_option maxHeartbeats 2000000 in
/-- What the body reads from the scratch tile after its last store there: the running total after all 64 units. -/
theorem scratch_total (c : Dev nD) (arg1 : Memref sig .tc .vmem S256x64 .f32) (harg1 : arg1.IsWhole)
    (arg2 : Memref sig .tc .vmem S64x2048 .f32) (harg2 : arg2.IsWhole) (arg3 : Memref sig .tc .vmem S64x1 .f32) (harg3 : arg3.IsWhole)
    (arg6 : Memref sig .tc .vmem S256x2048 .f32)
    (x0 : Vec F S256x64 .f32) (x1 : Vec F S64x2048 .f32) (x2 : Vec F S64x1 .f32) :
    kernelRun0_A.sl.v1156 c arg1 harg1 arg2 harg2 arg3 harg3 arg6 x0 x1 x2 = acc x0 x1 x2 64 (Nat.le_refl 64) := by
  read_back_stores
  exact e64

/-! ## The output tile -/

/-- What the run leaves in the output tile: the diagonal's zero selected over the logistic of the running total
    after all 64 units plus the second layer's bias. -/
theorem out_eq (c : Dev nD) (i : grid0.Coords) (arg1 : Memref sig .tc .vmem S256x64 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S256x2048 .f32) (harg5 : arg5.IsWhole) (arg6 : Memref sig .tc .vmem S256x2048 .f32) (harg6 : arg6.IsWhole)
    (x0 : Vec F S256x64 .f32) (x1 : Vec F S64x2048 .f32) (x2 : Vec F S64x1 .f32) (x3 : Vec F S1x1 .f32) :
    out0_A_4 c i arg1 harg1 arg2 harg2 arg3 harg3 arg4 harg4 arg5 harg5 arg6 harg6 x0 x1 x2 x3
      = k0_pay1 (k0_pay131 (acc x0 x1 x2 64 (Nat.le_refl 64)) x3) (k0_pay132 (BitVec.ofNat 32 (i 0).val)) k0_pay133 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero hz, kernelRun0_A.sl.r_64, kernelRun0_A.sl.r_65, scratch_total]
  simp only [View.readAt_eq_ld, harg4.read_unread, View.ld_unit_zero (S := S1x1) hz]

/-! ## At an entry, over the extended reals -/

/-- A column of height `a` spread along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a 1 × 1 tile, as `vector.extract` reads it. -/
theorem extractAt_00 {α : Type} (w : S1x1.Idx → α) (h : ∀ a, (![0, 0] : Fin 2 → ℕ) a < S1x1.size a) :
    extractAt ![0, 0] w h = w (ix2 (0 : Fin 1) (0 : Fin 1)) :=
  congrArg w (funext fun a => Fin.ext (by
    match a with
    | ⟨0, _⟩ => rfl
    | ⟨1, _⟩ => rfl))

/-- One step at an entry: the total there plus the unit's term of the column's entry in that row, the row's entry
    in that column and the weight. -/
theorem pay_step_apply (col : FVec Ideal S256x1 .f32) (row : FVec Ideal S1x2048 .f32) (a : FVec Ideal S256x2048 .f32)
    (w : FVec Ideal S1x1 .f32) (p : Fin 256) (q : Fin 2048) :
    k0_pay3 (F := Ideal) col row a w (ix2 p q)
      = a (ix2 p q) + unitTerm (col (ix2 p (0 : Fin 1))) (row (ix2 (0 : Fin 1) q)) (w (ix2 (0 : Fin 1) (0 : Fin 1))) := by
  unfold k0_pay3
  simp only [shapeCast_self]
  rw [addf_apply, mulf_apply, maximumf_apply, addf_apply, broadcast_apply, broadcast_apply,
    broadcastTo_a1_ab_apply, broadcastTo_1b_ab_apply]
  rw [extractAt_00, show (Scalar.ofBits (F := Ideal) .f32 0x00000000#32 : EReal) = 0 from Ideal.ofBits_zero_f32]
  rfl

/-- The three loads of step `h` at an entry: the source tile's entry `(p, h)`, the target table's `(h, q)`, the weight's `(h, 0)`. -/
theorem ld_col (x0 : Vec Ideal S256x64 .f32) (h : ℕ) (hh : h < 64) (p : Fin 256) :
    View.ld (Val := Elt Ideal) x0 (colRect h hh) (ix2 p (0 : Fin 1)) = x0 (ix2 p ⟨h, hh⟩) :=
  congrArg x0 (funext fun a => Fin.ext (by
    match a with
    | ⟨0, _⟩ => show 0 + 1 * p.val = p.val; omega
    | ⟨1, _⟩ => show h + 1 * 0 = h; omega))

theorem ld_row (x1 : Vec Ideal S64x2048 .f32) (h : ℕ) (hh : h < 64) (q : Fin 2048) :
    View.ld (Val := Elt Ideal) x1 (rowRect h hh) (ix2 (0 : Fin 1) q) = x1 (ix2 ⟨h, hh⟩ q) :=
  congrArg x1 (funext fun a => Fin.ext (by
    match a with
    | ⟨0, _⟩ => show h + 1 * 0 = h; omega
    | ⟨1, _⟩ => show 0 + 1 * q.val = q.val; omega))

theorem ld_w (x2 : Vec Ideal S64x1 .f32) (h : ℕ) (hh : h < 64) :
    View.ld (Val := Elt Ideal) x2 (wRect h hh) (ix2 (0 : Fin 1) (0 : Fin 1)) = x2 (ix2 ⟨h, hh⟩ (0 : Fin 1)) :=
  congrArg x2 (funext fun a => Fin.ext (by
    match a with
    | ⟨0, _⟩ => show h + 1 * 0 = h; omega
    | ⟨1, _⟩ => show 0 + 1 * 0 = 0; omega))

/-- The term hidden unit `h` adds at the entry `(p, q)` (zero past the last unit). -/
def termAt (x0 : Vec Ideal S256x64 .f32) (x1 : Vec Ideal S64x2048 .f32) (x2 : Vec Ideal S64x1 .f32)
    (p : Fin 256) (q : Fin 2048) (h : ℕ) : EReal :=
  if hh : h < 64 then unitTerm (x0 (ix2 p ⟨h, hh⟩)) (x1 (ix2 ⟨h, hh⟩ q)) (x2 (ix2 ⟨h, hh⟩ (0 : Fin 1))) else 0

/-- The running total after `n` units, at an entry: the running sum of the units' terms there. -/
theorem acc_apply (x0 : Vec Ideal S256x64 .f32) (x1 : Vec Ideal S64x2048 .f32) (x2 : Vec Ideal S64x1 .f32)
    (p : Fin 256) (q : Fin 2048) : ∀ (n : ℕ) (hn : n ≤ 64),
    acc (F := Ideal) x0 x1 x2 n hn (ix2 p q) = running (termAt x0 x1 x2 p q) n
  | 0, _ => by
    show k0_pay2 (F := Ideal) (ix2 p q) = 0
    unfold k0_pay2
    simp only [shapeCast_self]
    rw [broadcast_apply]
    exact Ideal.ofBits_zero_f32
  | n + 1, hn => by
    have hh : n < 64 := by omega
    show step (F := Ideal) n hh x0 x1 x2 (acc (F := Ideal) x0 x1 x2 n (by omega)) (ix2 p q) = running (termAt x0 x1 x2 p q) n + termAt x0 x1 x2 p q n
    unfold step
    rw [pay_step_apply, acc_apply x0 x1 x2 p q n (by omega), ld_col, ld_row, ld_w]
    unfold termAt
    rw [dif_pos hh]

/-- AN ENTRY OF THE OUTPUT TILE at grid point `i`: `edge` of the diagonal bit (the tile's first row number
    `i · 256` plus the row inside the tile, against the column, as 32-bit words) and of the score — the finite sum of
    the 64 units' terms plus the second layer's bias. -/
theorem body_apply (c : Dev nD) (i : grid0.Coords) (arg1 : Memref sig .tc .vmem S256x64 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S256x2048 .f32) (harg5 : arg5.IsWhole) (arg6 : Memref sig .tc .vmem S256x2048 .f32) (harg6 : arg6.IsWhole)
    (x0 : Vec Ideal S256x64 .f32) (x1 : Vec Ideal S64x2048 .f32) (x2 : Vec Ideal S64x1 .f32) (x3 : Vec Ideal S1x1 .f32)
    (p : Fin 256) (q : Fin 2048) :
    out0_A_4 (F := Ideal) c i arg1 harg1 arg2 harg2 arg3 harg3 arg4 harg4 arg5 harg5 arg6 harg6 x0 x1 x2 x3 (ix2 p q)
      = edge (IntOp.cmpi .eq (IntOp.addi (IntOp.muli (BitVec.ofNat 32 (i 0).val) 256#32) (BitVec.ofNat 32 p.val)) (BitVec.ofNat 32 q.val))
          ((∑ k : Fin 64, unitTerm (x0 (ix2 p k)) (x1 (ix2 k q)) (x2 (ix2 k (0 : Fin 1)))) + x3 (ix2 (0 : Fin 1) (0 : Fin 1))) := by
  rw [out_eq]
  unfold k0_pay1 k0_pay131 k0_pay132 k0_pay133
  rw [select_apply, broadcast_apply]
  unfold logistic cmpi addi
  rw [addf_apply, broadcast_apply, broadcast_apply, iota_single_apply, iota_single_apply, acc_apply,
    running_eq_sum_fin 64 (termAt x0 x1 x2 p q)
      (fun k => unitTerm (x0 (ix2 p k)) (x1 (ix2 k q)) (x2 (ix2 k (0 : Fin 1))))
      (fun k => by unfold termAt; rw [dif_pos k.isLt])]
  unfold edge Scalar.muli
  rw [extractAt_00, show (Scalar.ofBits (F := Ideal) .f32 0x00000000#32 : EReal) = 0 from Ideal.ofBits_zero_f32]
  rfl

end Cert.KernelIdeal.BodyValue

end
-- ==== Proof.KernelArray.lean ====
/-
  From the blocks to the array: after the run the kernel's result array is the pairwise edge table of the four
  arrays its region finds.

  The region walks 8 grid points. At point `t` it stages rows `256·t … 256·t + 255` of the source projections
  (a 256 × 64 tile), the whole transposed target table (64 × 2048), the whole weight column (64 × 1) and the one
  bias element, and writes back rows `256·t … 256·t + 255` of the 2048 × 2048 result. An entry `(p, q)` of the
  tile the body leaves is `edge` of the diagonal bit — the tile's first row `256·t` plus `p`, against `q` — and of
  the score `∑ₖ max (x₀ p k + x₁ k q) 0 · x₂ k + x₃`; reading each staged block back where the array holds it, that
  is the table's entry `(256·t + p, q)`. The 8 row tiles are disjoint and fill the array, every point writes its
  tile back, so the array ends holding the table.
-/
import proofs.«131692_j12214886990283_1_alg».proof.Proof.Gen.KernelIdeal.Value
import proofs.«131692_j12214886990283_1_alg».proof.Proof.BodyValue
import proofs.«131692_j12214886990283_1_alg».proof.Proof.EdgeLaw
import Idealize.ShloMosaic.Lib.Pipeline.Value
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
  Idealize.ShloMosaic.ValueIdx Cert.PairwiseEdge
open Idealize.ShloMosaic.Pipeline (Dat)

/-! ## The index maps, decided over the grid -/

/-- At point `t` the source tile and the result tile are block `(t, 0)`, the three whole operands block `(0, 0)`,
    and the body's grid coordinate is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- Row `p` of the tile of point `t`, as a row of the array: `256·t + p`. -/
def row (t : Fin cfg0.N) (p : Fin 256) : Fin 2048 :=
  ⟨t.val * 256 + p.val, by have hN : cfg0.N = 8 := N_0; have := t.isLt; have := p.isLt; omega⟩

theorem row_val (t : Fin cfg0.N) (p : Fin 256) : (row t p).val = t.val * 256 + p.val := rfl

/-! ## One entry of a tile, over any blocks that read the four arrays -/

/-- The tile's diagonal bit is the table's: `256·t + p` computed in 32-bit words, against `q`. -/
theorem diag_word (t p q : ℕ) :
    IntOp.cmpi .eq (IntOp.addi (IntOp.muli (BitVec.ofNat 32 t) 256#32) (BitVec.ofNat 32 p)) (BitVec.ofNat 32 q)
      = IntOp.cmpi .eq (IntOp.addi (BitVec.ofNat 32 (t * 256 + p)) 0#32) (BitVec.ofNat 32 q) := by
  have e1 : IntOp.addi (IntOp.muli (BitVec.ofNat 32 t) 256#32) (BitVec.ofNat 32 p)
      = IntOp.addi (BitVec.ofNat 32 (t * 256 + p)) 0#32 := by
    unfold IntOp.addi IntOp.muli
    apply BitVec.eq_of_toNat_eq
    simp only [BitVec.toNat_add, BitVec.toNat_mul, BitVec.toNat_ofNat]
    omega
  rw [e1]

/-- AN ENTRY OF THE TILE the body leaves at grid coordinate `i`, for blocks `x₀ … x₃` that hold, where the entry
    reads them, row `r` of `A`, column `q` of `BT`, the column `W` and the element `b2`, with `r = 256·i + p`: the
    table's entry `(r, q)`. -/
theorem tile_entry_of (c : Dev nD) (i : grid0.Coords) (arg1 : Memref sig .tc .vmem S256x64 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S256x2048 .f32) (harg5 : arg5.IsWhole) (arg6 : Memref sig .tc .vmem S256x2048 .f32) (harg6 : arg6.IsWhole)
    (x0 : Vec Ideal S256x64 .f32) (x1 : Vec Ideal S64x2048 .f32) (x2 : Vec Ideal S64x1 .f32) (x3 : Vec Ideal S1x1 .f32)
    (A : (⟨2, ![2048, 64]⟩ : Shape).Idx → EReal) (BT : (⟨2, ![64, 2048]⟩ : Shape).Idx → EReal)
    (W : (⟨2, ![64, 1]⟩ : Shape).Idx → EReal) (b2 : EReal)
    (p : Fin 256) (q : Fin 2048) (r : Fin 2048) (hr : r.val = (i 0).val * 256 + p.val)
    (h0 : ∀ k : Fin 64, x0 (ix2 p k) = A (ix2 r k)) (h1 : ∀ k : Fin 64, x1 (ix2 k q) = BT (ix2 k q))
    (h2 : ∀ k : Fin 64, x2 (ix2 k (0 : Fin 1)) = W (ix2 k (0 : Fin 1))) (h3 : x3 (ix2 (0 : Fin 1) (0 : Fin 1)) = b2) :
    out0_A_4 (F := Ideal) c i arg1 harg1 arg2 harg2 arg3 harg3 arg4 harg4 arg5 harg5 arg6 harg6 x0 x1 x2 x3 (ix2 p q)
      = table A BT W b2 (ix2 r q) := by
  rw [BodyValue.body_apply c i arg1 harg1 arg2 harg2 arg3 harg3 arg4 harg4 arg5 harg5 arg6 harg6 x0 x1 x2 x3 p q]
  unfold table
  show _ = edge (IntOp.cmpi .eq (IntOp.addi (BitVec.ofNat 32 r.val) 0#32) (BitVec.ofNat 32 q.val))
      ((∑ k : Fin 64, unitTerm (A (ix2 r k)) (BT (ix2 k q)) (W (ix2 k (0 : Fin 1)))) + b2)
  rw [diag_word, ← hr, h3]
  exact congrArg (fun s => edge _ (s + b2)) (Finset.sum_congr rfl fun k _ => by rw [h0, h1, h2])

section AtLaunch

variable (m : (ℓ : Loc nD τ sig) → Buf (Elt Ideal) ℓ)

/-- The table of the four arrays the region finds. -/
abbrev T (c : Dev nD) : S2048x2048.Idx → EReal :=
  table (V m c main_v6) (V m c main_v11) (V m c main_arg5) (V m c main_v12 (ix2 (0 : Fin 1) (0 : Fin 1)))

/-! ## The staged blocks, read where the array holds them -/

/-- The source tile of point `t` at `(p, k)` is the source array at `(256·t + p, k)`. -/
theorem src_block (c : Dev nD) (t : Fin cfg0.N) (p : Fin 256) (k : Fin 64) :
    (iblk m c 0 t : Vec Ideal S256x64 .f32) (ix2 p k) = (V m c main_v6 : S2048x64.Idx → EReal) (ix2 (row t p) k) := by
  obtain ⟨e0, e1, -⟩ := idx_facts t
  show V m c main_v6 (((cfg0.win 0).blk t).view.emb (ix2 p k)) = V m c main_v6 (ix2 (row t p) k)
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 64 + 1 * k.val = k.val; rw [e1]; omega

/-- The staged target table is the whole array. -/
theorem tgt_block (c : Dev nD) (t : Fin cfg0.N) (k : Fin 64) (q : Fin 2048) :
    (iblk m c 1 t : Vec Ideal S64x2048 .f32) (ix2 k q) = (V m c main_v11 : S64x2048.Idx → EReal) (ix2 k q) := by
  obtain ⟨-, -, e2, e3, -⟩ := idx_facts t
  show V m c main_v11 (((cfg0.win 1).blk t).view.emb (ix2 k q)) = V m c main_v11 (ix2 k q)
  refine congrArg _ (funext fun a => Fin.ext ?_)
  match a with
  | ⟨0, _⟩ => show win0_1.index t (0 : Fin 2) * 64 + 1 * k.val = k.val; rw [e2]; omega
  | ⟨1, _⟩ => show win0_1.index t (1 : Fin 2) * 2048 + 1 * q.val = q.val; rw [e3]; omega

/-- The staged weight column is the whole array. -/
theorem wt_block (c : Dev nD) (t : Fin cfg0.N) (k : Fin 64) :
    (iblk m c 2 t : Vec Ideal S64x1 .f32) (ix2 k (0 : Fin 1)) = (V m c main_arg5 : S64x1.Idx → EReal) (ix2 k (0 : Fin 1)) := by
  obtain ⟨-, -, -, -, e4, e5, -⟩ := idx_facts t
  show V m c main_arg5 (((cfg0.win 2).blk t).view.emb (ix2 k (0 : Fin 1))) = V m c main_arg5 (ix2 k (0 : Fin 1))
  refine congrArg _ (funext fun a => Fin.ext ?_)
  match a with
  | ⟨0, _⟩ => show win0_2.index t (0 : Fin 2) * 64 + 1 * k.val = k.val; rw [e4]; omega
  | ⟨1, _⟩ => show win0_2.index t (1 : Fin 2) * 1 + 1 * 0 = 0; rw [e5]

/-- The staged bias is the array's one element. -/
theorem bias_block (c : Dev nD) (t : Fin cfg0.N) :
    (iblk m c 3 t : Vec Ideal S1x1 .f32) (ix2 (0 : Fin 1) (0 : Fin 1)) = (V m c main_v12 : S1x1.Idx → EReal) (ix2 (0 : Fin 1) (0 : Fin 1)) := by
  obtain ⟨-, -, -, -, -, -, e6, e7, -⟩ := idx_facts t
  show V m c main_v12 (((cfg0.win 3).blk t).view.emb (ix2 (0 : Fin 1) (0 : Fin 1))) = V m c main_v12 (ix2 (0 : Fin 1) (0 : Fin 1))
  refine congrArg _ (funext fun a => Fin.ext ?_)
  match a with
  | ⟨0, _⟩ => show win0_3.index t (0 : Fin 2) * 1 + 1 * 0 = 0; rw [e6]
  | ⟨1, _⟩ => show win0_3.index t (1 : Fin 2) * 1 + 1 * 0 = 0; rw [e7]

/-- The result tile of point `t` sits at rows `256·t …` of the array: its entry `(p, q)` is the array's `(256·t + p, q)`. -/
theorem out_emb (t : Fin cfg0.N) (p : Fin 256) (q : Fin 2048) :
    ((cfg0.win 4).blk t).view.emb (ix2 p q) = (ix2 (row t p) q : S2048x2048.Idx) := by
  obtain ⟨-, -, -, -, -, -, -, -, e8, e9, -⟩ := idx_facts t
  refine funext fun a => Fin.ext ?_
  match a with
  | ⟨0, _⟩ => show win0_4.index t (0 : Fin 2) * 256 + 1 * p.val = t.val * 256 + p.val; rw [e8]; omega
  | ⟨1, _⟩ => show win0_4.index t (1 : Fin 2) * 2048 + 1 * q.val = q.val; rw [e9]; omega

/-! ## What each point writes back -/

/-- An entry of the tile point `t` leaves: the table's entry at the tile's place in the array. -/
theorem tile_entry (c : Dev nD) (t : Fin cfg0.N) (p : Fin 256) (q : Fin 2048) :
    out0_A_4 (F := Ideal) c (grid0.coords t) (ms0_0 t) (hs0_0 t) (ms0_1 t) (hs0_1 t) (ms0_2 t) (hs0_2 t) (ms0_3 t) (hs0_3 t)
        (ms0_4 t) (hs0_4 t) scM0_0 (Memref.isWhole_whole _) (iblk m c 0 t) (iblk m c 1 t) (iblk m c 2 t) (iblk m c 3 t) (ix2 p q)
      = T m c (ix2 (row t p) q) :=
  tile_entry_of c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)
    (V m c main_v6) (V m c main_v11) (V m c main_arg5) (V m c main_v12 (ix2 (0 : Fin 1) (0 : Fin 1)))
    p q (row t p) (by rw [row_val, (idx_facts t).2.2.2.2.2.2.2.2.2.2])
    (fun k => src_block m c t p k) (fun k => tgt_block m c t k q) (fun k => wt_block m c t k) (bias_block m c t)

/-- WHAT POINT `t` WRITES BACK is tile `t` of the table. -/
theorem flushed_eq (c : Dev nD) (t : Fin cfg0.N) :
    (dats m 0 c).flushed 4 t = ((cfg0.win 4).blk t).view.read (Elt Ideal) (T m c) := by
  rw [flushed4_A]
  have key : ∀ y : S256x2048.Idx,
      out0_A_4 (F := Ideal) c (grid0.coords t) (ms0_0 t) (hs0_0 t) (ms0_1 t) (hs0_1 t) (ms0_2 t) (hs0_2 t) (ms0_3 t) (hs0_3 t)
          (ms0_4 t) (hs0_4 t) scM0_0 (Memref.isWhole_whole _) (iblk m c 0 t) (iblk m c 1 t) (iblk m c 2 t) (iblk m c 3 t) y
        = T m c (((cfg0.win 4).blk t).view.emb y) := fun y => by
    obtain ⟨p, q, rfl⟩ : ∃ (p : Fin 256) (q : Fin 2048), y = ix2 p q := ⟨y 0, y 1, eq_ix2 y⟩
    rw [out_emb]
    exact tile_entry m c t p q
  exact funext key

/-! ## The tiles fill the array -/

/-- An index of the array is in point `t`'s tile iff each coordinate is in the tile's range on its axis. -/
theorem mem_blk (t : Fin cfg0.N) (i : S2048x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v13).slice (win0_4.rect t)).set ↔ _
  rw [View.set_slice_whole, Rect.mem_set_unit]
  exact Iff.rfl

/-- Row `r` of the array is in the tile of point `r / 256`, and every point writes its tile back. -/
theorem cover (i : S2048x2048.Idx) :
    ∃ t : Fin cfg0.N, (cfg0.win 4).flush t = true ∧ i ∈ ((cfg0.win 4).blk t).view.set := by
  have hN : cfg0.N = 8 := N_0
  have hi0 : (i 0).val < 2048 := (i 0).isLt
  have hi1 : (i 1).val < 2048 := (i 1).isLt
  have ht : (i 0).val / 256 < cfg0.N := by omega
  obtain ⟨-, -, -, -, -, -, -, -, e8, e9, -⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e8]
    show (i 0).val / 256 * 256 ≤ (i 0).val ∧ (i 0).val < (i 0).val / 256 * 256 + 256
    omega
  | ⟨1, _⟩ =>
    show win0_4.index ⟨(i 0).val / 256, ht⟩ (1 : Fin 2) * 2048 ≤ (i 1).val ∧ (i 1).val < win0_4.index ⟨(i 0).val / 256, ht⟩ (1 : Fin 2) * 2048 + 2048
    rw [e9]
    omega

/-! ## The array after the run -/

/-- THE RESULT ARRAY after the run is the pairwise edge table of the four arrays the region finds. -/
theorem final (c : Dev nD) :
    (dats m 0 c).arrAt 4 cfg0.N
      = table (V m c main_v6) (V m c main_v11) (V m c main_arg5) (V m c main_v12 (ix2 (0 : Fin 1) (0 : Fin 1))) :=
  (dats m 0 c).arrAt_eq_of_cover 4 (T m c) (fun t _ => flushed_eq m c t) cover

end AtLaunch

end Cert.KernelIdeal.ArrayValue

end
-- ==== Proof.lean ====
/-
  The certificate of the pairwise edge kernel against its reference: both compute, for 2048 nodes with encoder
  output h = X · W_enc + b_enc, projections a = h · W1[0:64] and b = h · W1[64:128], the table
      T[i, j] = [i ≠ j] · logistic (∑ₖ max (a[i,k] + b[j,k] + b₁[k]) 0 · W2[k] + b₂).

  The kernel receives a, the transpose of b with b₁ added to each row, W2 and b₂, and fills the table one tile of
  256 rows per grid point: a running total over the 64 hidden units kept in a scratch tile, the logistic, and a
  selection that puts zero on the diagonal (BodyValue: one tile's entry; KernelArray: the tiles are the rows of one
  array; KernelHost: what the four operands hold). The reference forms the [2048, 2048, 64] array of rectified sums,
  contracts it with W2, applies the logistic spelt out and multiplies by one minus the identity matrix (RefTable).
  Over the extended reals both are the one function `Cert.PairwiseEdge.table` (EdgeLaw) of the same two
  projections: the running total is the finite sum, the first layer's bias moves inside by associativity of
  addition, `t · 0 = 0` and `t · 1 = t` for every `t`. No finiteness of the inputs is used by the value claim.
  The three frames are the generated frame runs; the idealization rewrote nothing, so `preserves` is `True`.
-/
import proofs.«131692_j12214886990283_1_alg».proof.Defs
import proofs.«131692_j12214886990283_1_alg».proof.Proof.Gen.Kernel
import proofs.«131692_j12214886990283_1_alg».proof.Proof.Gen.Kernel.Skeleton
import proofs.«131692_j12214886990283_1_alg».proof.Proof.Gen.Kernel.Launch
import proofs.«131692_j12214886990283_1_alg».proof.Proof.Gen.Kernel.Points
import proofs.«131692_j12214886990283_1_alg».proof.Proof.Gen.Kernel.Frame
import proofs.«131692_j12214886990283_1_alg».proof.Proof.Gen.KernelIdeal
import proofs.«131692_j12214886990283_1_alg».proof.Proof.Gen.KernelIdeal.Skeleton
import proofs.«131692_j12214886990283_1_alg».proof.Proof.Gen.KernelIdeal.Launch
import proofs.«131692_j12214886990283_1_alg».proof.Proof.Gen.KernelIdeal.Points
import proofs.«131692_j12214886990283_1_alg».proof.Proof.Gen.KernelIdeal.Frame
import proofs.«131692_j12214886990283_1_alg».proof.Proof.Gen.ReferenceIdeal
import proofs.«131692_j12214886990283_1_alg».proof.Proof.Gen.Pre_finite_inputs
import proofs.«131692_j12214886990283_1_alg».proof.Proof.Gen.KernelIdeal.Value
import proofs.«131692_j12214886990283_1_alg».proof.Proof.Gen.ReferenceIdeal.Run
import proofs.«131692_j12214886990283_1_alg».proof.Proof.Gen.ReferenceIdeal.Read
import proofs.«131692_j12214886990283_1_alg».proof.Proof.EdgeLaw
import proofs.«131692_j12214886990283_1_alg».proof.Proof.RefTable
import proofs.«131692_j12214886990283_1_alg».proof.Proof.KernelHost
import proofs.«131692_j12214886990283_1_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result array as the table of the two projections -/

section KernelSide

open Cert.KernelIdeal Cert.KernelIdeal.Gen Cert.PairwiseEdge

/-- After the run the kernel's result array is the table of the source projection, the target projection with the
    first layer's bias added (read transposed), the second layer's weights and its bias — each a function of the
    argument arrays as launched, the projections spelt as the reference spells them. -/
theorem kernel_table (m : (ℓ : Loc nD τ sig) → Buf (Elt Ideal) ℓ) (c : Dev nD) :
    (dats m 0 c).arrAt 4 cfg0.N
      = table
          (Cert.ReferenceIdeal.Read.val_main_v6 (F := Ideal) (m ((c : Thread nD τ).loc main_arg0)) (m ((c : Thread nD τ).loc main_arg1)) (m ((c : Thread nD τ).loc main_arg2)) (m ((c : Thread nD τ).loc main_arg3)))
          (fun j => Cert.ReferenceIdeal.Read.val_main_v7 (F := Ideal) (m ((c : Thread nD τ).loc main_arg0)) (m ((c : Thread nD τ).loc main_arg1)) (m ((c : Thread nD τ).loc main_arg2)) (m ((c : Thread nD τ).loc main_arg3)) (ix2 (j 1) (j 0))
            + m ((c : Thread nD τ).loc main_arg4) (ix1 (j 0)))
          (m ((c : Thread nD τ).loc main_arg5))
          (m ((c : Thread nD τ).loc main_arg6) (ix1 (0 : Fin 1))) := by
  have hBT : (V m c main_v11 : S64x2048.Idx → EReal)
      = fun j => Cert.ReferenceIdeal.Read.val_main_v7 (F := Ideal) (m ((c : Thread nD τ).loc main_arg0)) (m ((c : Thread nD τ).loc main_arg1)) (m ((c : Thread nD τ).loc main_arg2)) (m ((c : Thread nD τ).loc main_arg3)) (ix2 (j 1) (j 0))
            + m ((c : Thread nD τ).loc main_arg4) (ix1 (j 0)) := by
    funext j
    obtain ⟨k, q, rfl⟩ : ∃ (k : Fin 64) (q : Fin 2048), j = ix2 k q := ⟨j 0, j 1, eq_ix2 j⟩
    rw [Cert.KernelIdeal.HostValue.V_main_v11_apply m c k q, Cert.KernelIdeal.HostValue.hostB_eq_ref]
    rfl
  rw [Cert.KernelIdeal.ArrayValue.final m c, hBT, Cert.KernelIdeal.HostValue.V_main_v6 m c,
    Cert.KernelIdeal.HostValue.hostA_eq_ref, V_main_arg5 m c, Cert.KernelIdeal.HostValue.V_main_v12_apply m c]
  rfl

end KernelSide

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the table of those arguments. -/
theorem algebraic : Cert.algebraic_KernelIdeal_ReferenceIdeal := by
  intro m ρ m' ρ' _ hagree
  refine ⟨fun c => Cert.PairwiseEdge.table
      (Cert.ReferenceIdeal.Read.val_main_v6 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)))
      (fun j => Cert.ReferenceIdeal.Read.val_main_v7 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (ix2 (j 1) (j 0))
        + m ((c : Thread Cert.KernelIdeal.nD Cert.KernelIdeal.τ).loc Cert.KernelIdeal.main_arg4) (ix1 (j 0)))
      (m ((c : Thread Cert.KernelIdeal.nD Cert.KernelIdeal.τ).loc Cert.KernelIdeal.main_arg5))
      (m ((c : Thread Cert.KernelIdeal.nD Cert.KernelIdeal.τ).loc Cert.KernelIdeal.main_arg6) (ix1 (0 : Fin 1))), ?_, ?_⟩
  · exact (θ_run Cert.KernelIdeal.defs _ _).mono (fun _ h c => ⟨(h c).1.trans (kernel_table m c), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v36_eq, Cert.ReferenceIdeal.RefValue.ref_table, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
